-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048 : Shape := ⟨2, ![2, 2048]⟩
abbrev S50400x4096 : Shape := ⟨2, ![50400, 4096]⟩
abbrev S4096 : Shape := ⟨1, ![4096]⟩
abbrev S2048x4096 : Shape := ⟨2, ![2048, 4096]⟩
abbrev S_ : Shape := ⟨0, ![]⟩

class Facts : Prop where
  bcast_S_S50400x4096 : S_.BroadcastsInDim S50400x4096 (![] : Fin 0 → Fin S50400x4096.rank)
  reducesTo_S50400x4096_S_d0_1 : S50400x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S2048x4096 : S_.BroadcastsInDim S2048x4096 (![] : Fin 0 → Fin S2048x4096.rank)
  reducesTo_S2048x4096_S_d0_1 : S2048x4096.ReducesTo [0, 1] S_

variable [Facts]

def fn {F : FTy → Type} [FloatOps F] (main_arg0 : IVec S2x2048 32) (main_arg1 : FVec F S50400x4096 .f32) (main_arg2 : FVec F S4096 .f32) (main_arg3 : FVec F S2048x4096 .f32) : IVec S_ 1 :=
  let main_v0 : FVec F S50400x4096 .f32 := Host.absf main_arg1
  let main_cst : FVec F S_ .f32 := constant S_ .f32 0x7F800000#32
  let main_v1 : FVec F S50400x4096 .f32 := broadcastInDim S50400x4096 ![] bcast_S_S50400x4096 main_cst
  let main_v2 : IVec S50400x4096 1 := cmpf .olt main_v0 main_v1
  let main_c : IVec S_ 1 := constantI S_ 1 1#1
  let main_v3 : IVec S_ 1 := (fun x v => Host.reduce IntOp.andi x v reducesTo_S50400x4096_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S2048x4096 .f32 := Host.absf main_arg3
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  main_v13
-- ==== Kernel.lean ====
abbrev S2x2048 : Shape := ⟨2, ![2, 2048]⟩
abbrev S50400x4096 : Shape := ⟨2, ![50400, 4096]⟩
abbrev S4096 : Shape := ⟨1, ![4096]⟩
abbrev S2048x4096 : Shape := ⟨2, ![2048, 4096]⟩
abbrev S1x4096 : Shape := ⟨2, ![1, 4096]⟩
abbrev S2x2048x4096 : Shape := ⟨3, ![2, 2048, 4096]⟩
abbrev S2x1024 : Shape := ⟨2, ![2, 1024]⟩
abbrev S1008x512 : Shape := ⟨2, ![1008, 512]⟩
abbrev S1024x512 : Shape := ⟨2, ![1024, 512]⟩
abbrev S1x512 : Shape := ⟨2, ![1, 512]⟩
abbrev S2x1024x512 : Shape := ⟨3, ![2, 1024, 512]⟩
abbrev S1x1008 : Shape := ⟨2, ![1, 1008]⟩
abbrev S1x1024 : Shape := ⟨2, ![1, 1024]⟩
abbrev S1024 : Shape := ⟨1, ![1024]⟩
abbrev S1024x1 : Shape := ⟨2, ![1024, 1]⟩
abbrev S1024x1008 : Shape := ⟨2, ![1024, 1008]⟩
abbrev S1x1024x512 : Shape := ⟨3, ![1, 1024, 512]⟩

abbrev nBuf : Space → Nat
  | .hbm => 6
  | .vmem => 11
  | .smem => 0
  | _ => 0

abbrev bufTy : (tb : Table) → Fin (tcTables nBuf tb) → BufTy
  | .hbm, ⟨0, _⟩ => ⟨S2x2048, .i32⟩
  | .hbm, ⟨1, _⟩ => ⟨S50400x4096, .f32⟩
  | .hbm, ⟨2, _⟩ => ⟨S4096, .f32⟩
  | .hbm, ⟨3, _⟩ => ⟨S2048x4096, .f32⟩
  | .hbm, ⟨4, _⟩ => ⟨S1x4096, .f32⟩
  | .hbm, ⟨5, _⟩ => ⟨S2x2048x4096, .f32⟩
  | .local _ .vmem, ⟨0, _⟩ => ⟨S2x1024, .i32⟩
  | .local _ .vmem, ⟨1, _⟩ => ⟨S2x1024, .i32⟩
  | .local _ .vmem, ⟨2, _⟩ => ⟨S1008x512, .f32⟩
  | .local _ .vmem, ⟨3, _⟩ => ⟨S1008x512, .f32⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S2x1024x512, .f32⟩
  | .local _ .vmem, ⟨9, _⟩ => ⟨S2x1024x512, .f32⟩
  | .local _ .vmem, ⟨10, _⟩ => ⟨S2x1024x512, .f32⟩
  | _, _ => ⟨S2x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 50], ![false, false, false]⟩

def k0_cond2 (i : grid0.Coords) : BitVec 1 :=
  let arg2 : BitVec 32 := BitVec.ofNat 32 (i 2).val
  let c49_i32 : BitVec 32 := 49#32
  let v43 : BitVec 1 := Scalar.cmpi .eq arg2 c49_i32
  let v44 : BitVec 32 := Scalar.extui v43
  let c0_i32_18 : BitVec 32 := 0#32
  let v45 : BitVec 1 := Scalar.cmpi .ne v44 c0_i32_18
  v45

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1008x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S1x4096 : S4096.ShapeCasts S1x4096
  inb_S2x1024x512_S2x1024x512_0_0_0 : ∀ a, (![0, 0, 0] : Fin 3 → Nat) a + S2x1024x512.size a ≤ S2x1024x512.size a
  h_S2x1024x512 : 0 < S2x1024x512.numel
  shapeCasts_S2x1024x512_S2x1024x512 : S2x1024x512.ShapeCasts S2x1024x512
  iota_S1x1008_d1_w32 : S1x1008.Iotas .tc 32 [1]
  inb_S1008x512_S1008x512_0_0 : ∀ a, (![0, 0] : Fin 2 → Nat) a + S1008x512.size a ≤ S1008x512.size a
  h_S1008x512 : 0 < S1008x512.numel
  bitsLt_bf16_f32 : FTy.bits .bf16 < FTy.bits .f32
  inb_S2x1024_S1x1024_0_0 : ∀ a, (![0, 0] : Fin 2 → Nat) a + S1x1024.size a ≤ S2x1024.size a
  h_S1x1024 : 0 < S1x1024.numel
  shapeCasts_S1x1024_S1024 : S1x1024.ShapeCasts S1024
  shapeCasts_S1024_S1024x1 : S1024.ShapeCasts S1024x1
  broadcasts_S1024x1_S1024x1008 : S1024x1.Broadcasts S1024x1008
  broadcasts_S1x1008_S1024x1008 : S1x1008.Broadcasts S1024x1008
  natLt_1_32 : 1 < 32
  inb_S2x1024x512_S1x1024x512_0_0_0 : ∀ a, (![0, 0, 0] : Fin 3 → Nat) a + S1x1024x512.size a ≤ S2x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  inb_S2x1024_S1x1024_1_0 : ∀ a, (![1, 0] : Fin 2 → Nat) a + S1x1024.size a ≤ S2x1024.size a
  inb_S2x1024x512_S1x1024x512_1_0_0 : ∀ a, (![1, 0, 0] : Fin 3 → Nat) a + S1x1024x512.size a ≤ S2x1024x512.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x512_S1024x512_0_0 : ∀ a, (![0, 0] : Fin 2 → Nat) a + S1024x512.size a ≤ S1024x512.size a
  h_S1024x512 : 0 < S1024x512.numel
  broadcasts_S1x512_S1024x512 : S1x512.Broadcasts S1024x512
  dot_S1024x1008_S1008x512_S1024x512_1_0_0_1_n_n_wf : DotDims.WF S1024x1008 S1008x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024.size a ≤ S2x2048.size a
  hwx0_0 : ∀ i : grid0.Coords, EltTy.bits .i32 = 32 ∨ (Rect.block (s := S2x2048) S2x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1008x512.size a ≤ S50400x4096.size a
  hwx0_1 : ∀ i : grid0.Coords, EltTy.bits .f32 = 32 ∨ (Rect.block (s := S50400x4096) S1008x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S2048x4096.size a
  hwx0_2 : ∀ i : grid0.Coords, EltTy.bits .f32 = 32 ∨ (Rect.block (s := S2048x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1024x512.size a ≤ S2x2048x4096.size a
  hwx0_4 : ∀ i : grid0.Coords, EltTy.bits .f32 = 32 ∨ (Rect.block (s := S2x2048x4096) S2x1024x512.size (cc0_transform_4 i) (hinb0_4 i)).WholeWords (EltTy.packing .f32)

variable [Facts₀]

def dot_S1024x1008_S1008x512_S1024x512_1_0_0_1_n_n : DotDims S1024x1008 S1008x512 S1024x512 where
  lhsContracting := [1]
  rhsContracting := [0]
  lhsNonContracting := [0]
  rhsNonContracting := [1]
  lhsBatch := []
  rhsBatch := []
  wf := dot_S1024x1008_S1008x512_S1024x512_1_0_0_1_n_n_wf

abbrev win0_0 : Pipeline.Window sig grid0 :=
  Pipeline.Window.ofSpec (Memref.whole main_arg0) S2x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1008x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2x1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x2048 : Shape := ⟨2, ![2, 2048]⟩
abbrev S50400x4096 : Shape := ⟨2, ![50400, 4096]⟩
abbrev S4096 : Shape := ⟨1, ![4096]⟩
abbrev S2048x4096 : Shape := ⟨2, ![2048, 4096]⟩
abbrev S2x2048x1 : Shape := ⟨3, ![2, 2048, 1]⟩
abbrev S1x1x50400 : Shape := ⟨3, ![1, 1, 50400]⟩
abbrev S2x2048x50400 : Shape := ⟨3, ![2, 2048, 50400]⟩
abbrev S2x2048x4096 : Shape := ⟨3, ![2, 2048, 4096]⟩
abbrev S1x1x4096 : Shape := ⟨3, ![1, 1, 4096]⟩
abbrev S1x2048x4096 : Shape := ⟨3, ![1, 2048, 4096]⟩

abbrev nBuf : Space → Nat
  | .hbm => 17
  | .vmem => 0
  | .smem => 0
  | _ => 0

abbrev bufTy : (tb : Table) → Fin (tcTables nBuf tb) → BufTy
  | .hbm, ⟨0, _⟩ => ⟨S2x2048, .i32⟩
  | .hbm, ⟨1, _⟩ => ⟨S50400x4096, .f32⟩
  | .hbm, ⟨2, _⟩ => ⟨S4096, .f32⟩
  | .hbm, ⟨3, _⟩ => ⟨S2048x4096, .f32⟩
  | .hbm, ⟨4, _⟩ => ⟨S2x2048x1, .i32⟩
  | .hbm, ⟨5, _⟩ => ⟨S1x1x50400, .i32⟩
  | .hbm, ⟨6, _⟩ => ⟨S2x2048x50400, .i32⟩
  | .hbm, ⟨7, _⟩ => ⟨S2x2048x50400, .i32⟩
  | .hbm, ⟨8, _⟩ => ⟨S2x2048x50400, .i1⟩
  | .hbm, ⟨9, _⟩ => ⟨S2x2048x50400, .f32⟩
  | .hbm, ⟨10, _⟩ => ⟨S2x2048x4096, .f32⟩
  | .hbm, ⟨11, _⟩ => ⟨S1x1x4096, .f32⟩
  | .hbm, ⟨12, _⟩ => ⟨S2x2048x4096, .f32⟩
  | .hbm, ⟨13, _⟩ => ⟨S2x2048x4096, .f32⟩
  | .hbm, ⟨14, _⟩ => ⟨S1x2048x4096, .f32⟩
  | .hbm, ⟨15, _⟩ => ⟨S2x2048x4096, .f32⟩
  | .hbm, ⟨16, _⟩ => ⟨S2x2048x4096, .f32⟩
  | _, _ => ⟨S2x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩

abbrev nD : Nat := 1
abbrev τ : Topo := Topo.v7x

variable {F : FTy → Type} [FloatOps F]

class Facts₀ : Prop where
  bcast_S2x2048_S2x2048x1_0_1 : S2x2048.BroadcastsInDim S2x2048x1 (![0, 1] : Fin 2 → Fin S2x2048x1.rank)
  bcast_S2x2048x1_S2x2048x50400_0_1_2 : S2x2048x1.BroadcastsInDim S2x2048x50400 (![0, 1, 2] : Fin 3 → Fin S2x2048x50400.rank)
  bcast_S1x1x50400_S2x2048x50400_0_1_2 : S1x1x50400.BroadcastsInDim S2x2048x50400 (![0, 1, 2] : Fin 3 → Fin S2x2048x50400.rank)
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  bcast_S2048x4096_S1x2048x4096_1_2 : S2048x4096.BroadcastsInDim S1x2048x4096 (![1, 2] : Fin 2 → Fin S1x2048x4096.rank)
  bcast_S1x2048x4096_S2x2048x4096_0_1_2 : S1x2048x4096.BroadcastsInDim S2x2048x4096 (![0, 1, 2] : Fin 3 → Fin S2x2048x4096.rank)
  dot_S2x2048x50400_S50400x4096_S2x2048x4096_2_0_01_1_n_n_wf : DotDims.WF S2x2048x50400 S50400x4096 S2x2048x4096 [2] [0] [0, 1] [1] [] []

variable [Facts₀]

def dot_S2x2048x50400_S50400x4096_S2x2048x4096_2_0_01_1_n_n : DotDims S2x2048x50400 S50400x4096 S2x2048x4096 where
  lhsContracting := [2]
  rhsContracting := [0]
  lhsNonContracting := [0, 1]
  rhsNonContracting := [1]
  lhsBatch := []
  rhsBatch := []
  wf := dot_S2x2048x50400_S50400x4096_S2x2048x4096_2_0_01_1_n_n_wf

class Facts : Prop extends Facts₀ where

variable [Facts]
-- ==== Proof.Pieces.lean ====
/-
  What one run of the kernel body leaves, case by case, as explicit contents.

  The accumulator is a [2, 1024, 512] buffer of two slabs, one per batch row. Every run of the body adds to
  slab 0 the product of batch row 0's one-hot block with the table block, and to slab 1 the same for batch
  row 1: one step (step). At the first vocabulary tile the accumulator is first filled with zeros, so the step
  is taken from the zero array; at the other tiles it is taken from what the previous grid point left. At the
  last vocabulary tile the body also writes the output block: slab by slab, the accumulator after the step,
  plus the bias row repeated down the rows, plus the position block (emit).

  The two slabs tile the buffer (cover_slabs), so writes that end with the two slabs read back as those two
  slabs whatever was written before (canon_slabs_more).
-/
import proofs.«178647_j39307540693313_2_alg».proof.Proof.Gen.KernelIdeal.Frame
import Idealize.ShloMosaic.Lib.Pipeline.Value
import Idealize.ShloMosaic.Lib.Tactic

noncomputable section

namespace Cert.KernelIdeal.Acc

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Slab b of the accumulator (or of the output block): the [1, 1024, 512] rectangle at batch row b. -/
abbrev slab0 : Rect S2x1024x512 := Rect.unit ![0, 0, 0] S1x1024x512.size Facts₀.inb_S2x1024x512_S1x1024x512_0_0_0
abbrev slab1 : Rect S2x1024x512 := Rect.unit ![1, 0, 0] S1x1024x512.size Facts₀.inb_S2x1024x512_S1x1024x512_1_0_0
/-- Batch row b of the token block: the [1, 1024] rectangle at row b. -/
abbrev row0 : Rect S2x1024 := Rect.unit ![0, 0] S1x1024.size Facts₀.inb_S2x1024_S1x1024_0_0
abbrev row1 : Rect S2x1024 := Rect.unit ![1, 0] S1x1024.size Facts₀.inb_S2x1024_S1x1024_1_0

/-- A buffer written slab by slab. -/
abbrev slabs (w1 w0 : S1x1024x512.Idx → Elt F .f32) : S2x1024x512.Idx → Elt F .f32 :=
  View.canon [(⟨slab1, w1⟩ : View.Piece (Elt F) S2x1024x512 .f32), ⟨slab0, w0⟩]

/-- The two slabs hold every index of the buffer between them. -/
theorem cover_slabs (w1 w0 : S1x1024x512.Idx → Elt F .f32) (y : S2x1024x512.Idx) :
    ∃ p ∈ [(⟨slab1, w1⟩ : View.Piece (Elt F) S2x1024x512 .f32), ⟨slab0, w0⟩], y ∈ p.1.set := by
  have h0 : (y 0).val < 2 := (y 0).isLt
  have h1 : (y 1).val < 1024 := (y 1).isLt
  have h2 : (y 2).val < 512 := (y 2).isLt
  by_cases hb : (y 0).val = 0
  · refine ⟨⟨slab0, w0⟩, by simp, ?_⟩
    show y ∈ slab0.set
    rw [Rect.mem_set_unit]
    intro a
    match a with
    | ⟨0, _⟩ => show 0 ≤ (y 0).val ∧ (y 0).val < 0 + 1; omega
    | ⟨1, _⟩ => show 0 ≤ (y 1).val ∧ (y 1).val < 0 + 1024; omega
    | ⟨2, _⟩ => show 0 ≤ (y 2).val ∧ (y 2).val < 0 + 512; omega
  · refine ⟨⟨slab1, w1⟩, by simp, ?_⟩
    show y ∈ slab1.set
    rw [Rect.mem_set_unit]
    intro a
    match a with
    | ⟨0, _⟩ => show 1 ≤ (y 0).val ∧ (y 0).val < 1 + 1; omega
    | ⟨1, _⟩ => show 0 ≤ (y 1).val ∧ (y 1).val < 0 + 1024; omega
    | ⟨2, _⟩ => show 0 ≤ (y 2).val ∧ (y 2).val < 0 + 512; omega

/-- One step of the accumulation at grid point i: to each slab of acc, the product of that batch row's one-hot
    block (built from the token block x and the tile number) with the table block w is added. -/
def step (i : grid0.Coords) (w : Vec F S1008x512 .f32) (x : Vec F S2x1024 .i32) (acc : Vec F S2x1024x512 .f32) :
    Vec F S2x1024x512 .f32 :=
  slabs (k0_pay1 (k0_pay8 i w (View.ld x row1)) (View.ld acc slab1)) (k0_pay7 i w (View.ld x row0) (View.ld acc slab0))

/-- The output block written at the last tile: each slab of the accumulator plus the bias row plus the position block. -/
def emit (b : Vec F S1x512 .f32) (p : Vec F S1024x512 .f32) (acc : Vec F S2x1024x512 .f32) : Vec F S2x1024x512 .f32 :=
  slabs (k0_pay4 b p (View.ld acc slab1)) (k0_pay3 b p (View.ld acc slab0))

/-- At a middle tile the accumulator ends one step on from what the point before left. -/
theorem scratch_B (c : Dev nD) (i : grid0.Coords) (a3 : Memref sig .tc .vmem S2x1024 .i32) (h3 : a3.IsWhole) (a4 : Memref sig .tc .vmem S1008x512 .f32) (h4 : a4.IsWhole) (a5 : Memref sig .tc .vmem S1024x512 .f32) (h5 : a5.IsWhole) (a6 : Memref sig .tc .vmem S1x512 .f32) (h6 : a6.IsWhole) (a7 : Memref sig .tc .vmem S2x1024x512 .f32) (h7 : a7.IsWhole) (a8 : Memref sig .tc .vmem S2x1024x512 .f32) (h8 : a8.IsWhole) (hc0 : ¬cond0_0 i) (hc1 : ¬cond0_1 i)
    (x0 : Vec F S2x1024 .i32) (x1 : Vec F S1008x512 .f32) (x2 : Vec F S1024x512 .f32) (x3 : Vec F S1x512 .f32) (xs0 : Vec F S2x1024x512 .f32) :
    sout0_B_0 c i a3 h3 a4 h4 a5 h5 a6 h6 a7 h7 a8 h8 hc0 hc1 x0 x1 x2 x3 xs0 = step i x1 x0 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  sl_unfold_words
  simp only [View.readAt_eq_ld, h3.read_unread, h4.read_unread, h8.read_unread, View.ld_unit_zero (S := S1008x512) hz2]
  rfl

/-- At the last tile too. -/
theorem scratch_C (c : Dev nD) (i : grid0.Coords) (a3 : Memref sig .tc .vmem S2x1024 .i32) (h3 : a3.IsWhole) (a4 : Memref sig .tc .vmem S1008x512 .f32) (h4 : a4.IsWhole) (a5 : Memref sig .tc .vmem S1024x512 .f32) (h5 : a5.IsWhole) (a6 : Memref sig .tc .vmem S1x512 .f32) (h6 : a6.IsWhole) (a7 : Memref sig .tc .vmem S2x1024x512 .f32) (h7 : a7.IsWhole) (a8 : Memref sig .tc .vmem S2x1024x512 .f32) (h8 : a8.IsWhole) (hc0 : ¬cond0_0 i) (hc1 : cond0_1 i)
    (x0 : Vec F S2x1024 .i32) (x1 : Vec F S1008x512 .f32) (x2 : Vec F S1024x512 .f32) (x3 : Vec F S1x512 .f32) (xs0 : Vec F S2x1024x512 .f32) :
    sout0_C_0 c i a3 h3 a4 h4 a5 h5 a6 h6 a7 h7 a8 h8 hc0 hc1 x0 x1 x2 x3 xs0 = step i x1 x0 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  simp only [View.readAt_eq_ld, h3.read_unread, h4.read_unread, h8.read_unread, View.ld_unit_zero (S := S1008x512) hz2]
  rfl

/-- At the last tile the output block is written from the accumulator after the step. -/
theorem out_C (c : Dev nD) (i : grid0.Coords) (a3 : Memref sig .tc .vmem S2x1024 .i32) (h3 : a3.IsWhole) (a4 : Memref sig .tc .vmem S1008x512 .f32) (h4 : a4.IsWhole) (a5 : Memref sig .tc .vmem S1024x512 .f32) (h5 : a5.IsWhole) (a6 : Memref sig .tc .vmem S1x512 .f32) (h6 : a6.IsWhole) (a7 : Memref sig .tc .vmem S2x1024x512 .f32) (h7 : a7.IsWhole) (a8 : Memref sig .tc .vmem S2x1024x512 .f32) (h8 : a8.IsWhole) (hc0 : ¬cond0_0 i) (hc1 : cond0_1 i)
    (x0 : Vec F S2x1024 .i32) (x1 : Vec F S1008x512 .f32) (x2 : Vec F S1024x512 .f32) (x3 : Vec F S1x512 .f32) (xs0 : Vec F S2x1024x512 .f32) :
    out0_C_4 c i a3 h3 a4 h4 a5 h5 a6 h6 a7 h7 a8 h8 hc0 hc1 x0 x1 x2 x3 xs0 = emit x3 x2 (step i x1 x0 xs0) := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  simp only [View.readAt_eq_ld, h3.read_unread, h4.read_unread, h5.read_unread, h6.read_unread, h8.read_unread,
    View.ld_unit_zero (S := S1008x512) hz2, View.ld_unit_zero (S := S1024x512) hz2, View.ld_unit_zero (S := S1x512) hz2]
  rw [View.readCov_eq_canon_ld a8.view _ slab1 (cover_slabs _ _), View.readCov_eq_canon_ld a8.view _ slab0 (cover_slabs _ _)]
  rfl

/-! ## The first tile: the accumulator is zeroed, then stepped -/

/-- The whole accumulator as one rectangle: the zero fill's store. -/
abbrev whole3 : Rect S2x1024x512 := Rect.unit ![0, 0, 0] S2x1024x512.size Facts₀.inb_S2x1024x512_S2x1024x512_0_0_0

/-- Writes whose two latest pieces are the two slabs read as those two slabs, whatever was written before. -/
theorem canon_slabs_more (w1 w0 : S1x1024x512.Idx → Elt F .f32) (L : List (View.Piece (Elt F) S2x1024x512 .f32)) :
    View.canon ((⟨slab1, w1⟩ : View.Piece (Elt F) S2x1024x512 .f32) :: ⟨slab0, w0⟩ :: L) = slabs w1 w0 := by
  funext y
  by_cases h1 : y ∈ slab1.set
  · obtain ⟨x, rfl⟩ : ∃ x, slab1.emb x = y := slab1.exists_idx_of_mem h1
    show View.canon (⟨slab1, w1⟩ :: _) (slab1.emb x) = View.canon [⟨slab1, w1⟩, ⟨slab0, w0⟩] (slab1.emb x)
    rw [View.canon_cons_emb, View.canon_cons_emb]
  · have h0 : y ∈ slab0.set := by
      obtain ⟨p, hp, hy⟩ := cover_slabs w1 w0 y
      rcases List.mem_cons.mp hp with rfl | hp
      · exact absurd hy h1
      · rcases List.mem_cons.mp hp with rfl | hp
        · exact hy
        · exact absurd hp List.not_mem_nil
    show View.canon (⟨slab1, w1⟩ :: _) y = View.canon [⟨slab1, w1⟩, ⟨slab0, w0⟩] y
    rw [View.canon_cons_of_not_mem ⟨slab1, w1⟩ _ h1, View.canon_cons_of_not_mem ⟨slab1, w1⟩ _ h1]
    obtain ⟨x, rfl⟩ : ∃ x, slab0.emb x = y := slab0.exists_idx_of_mem h0
    rw [View.canon_cons_emb, View.canon_cons_emb]

/-- The whole-buffer rectangle holds every index. -/
theorem mem_whole3 (y : S2x1024x512.Idx) : y ∈ whole3.set :=
  View.mem_set_unit_zero (S := S2x1024x512) hz3 Facts₀.inb_S2x1024x512_S2x1024x512_0_0_0 y

theorem cover_zero (y : S2x1024x512.Idx) :
    ∃ p ∈ [(⟨whole3, k0_pay5⟩ : View.Piece (Elt F) S2x1024x512 .f32)], y ∈ p.1.set :=
  ⟨⟨whole3, k0_pay5⟩, List.mem_singleton_self _, mem_whole3 y⟩

theorem cover_zero_more (w0 : S1x1024x512.Idx → Elt F .f32) (y : S2x1024x512.Idx) :
    ∃ p ∈ [(⟨slab0, w0⟩ : View.Piece (Elt F) S2x1024x512 .f32), ⟨whole3, k0_pay5⟩], y ∈ p.1.set :=
  ⟨⟨whole3, k0_pay5⟩, List.mem_cons_of_mem _ (List.mem_singleton_self _), mem_whole3 y⟩

/-- Slab 0 read back right after the zero fill is the zero array's slab 0. -/
theorem zero_read0 (v : View sig .tc .vmem S2x1024x512 .f32) :
    v.readCov [(⟨whole3, k0_pay5⟩ : View.Piece (Elt F) S2x1024x512 .f32)] slab0.toLoadRect = View.ld k0_pay5 slab0 := by
  rw [View.readCov_eq_canon_ld v _ slab0 cover_zero]
  exact congrArg (fun X => View.ld X slab0)
    (View.canon_unit_zero (Val := Elt F) (S := S2x1024x512) (e := .f32) hz3 Facts₀.inb_S2x1024x512_S2x1024x512_0_0_0 k0_pay5)

/-- Slab 1 read back after the zero fill and a write to slab 0 only is still the zero array's slab 1. -/
theorem zero_read1 (v : View sig .tc .vmem S2x1024x512 .f32) (w0 : S1x1024x512.Idx → Elt F .f32) :
    v.readCov [(⟨slab0, w0⟩ : View.Piece (Elt F) S2x1024x512 .f32), ⟨whole3, k0_pay5⟩] slab1.toLoadRect
      = View.ld k0_pay5 slab1 := by
  rw [View.readCov_eq_canon_ld v _ slab1 (cover_zero_more w0)]
  funext j
  show View.canon [(⟨slab0, w0⟩ : View.Piece (Elt F) S2x1024x512 .f32), ⟨whole3, k0_pay5⟩] (slab1.emb j) = k0_pay5 (slab1.emb j)
  have hn : slab1.emb j ∉ slab0.set := by
    rw [Rect.mem_set_unit]
    intro h
    have h0 := (h 0).2
    have e : ((slab1.emb j) 0).val = 1 + 1 * (j 0).val := rfl
    have e0 : (![0, 0, 0] : Fin 3 → Nat) 0 + S1x1024x512.size 0 = 1 := rfl
    omega
  rw [View.canon_cons_of_not_mem _ _ hn]
  exact congrFun
    (View.canon_unit_zero (Val := Elt F) (S := S2x1024x512) (e := .f32) hz3 Facts₀.inb_S2x1024x512_S2x1024x512_0_0_0 k0_pay5) _

/-- At the first tile the accumulator ends one step on from the zero array. -/
theorem scratch_A (c : Dev nD) (i : grid0.Coords) (a3 : Memref sig .tc .vmem S2x1024 .i32) (h3 : a3.IsWhole) (a4 : Memref sig .tc .vmem S1008x512 .f32) (h4 : a4.IsWhole) (a5 : Memref sig .tc .vmem S1024x512 .f32) (h5 : a5.IsWhole) (a6 : Memref sig .tc .vmem S1x512 .f32) (h6 : a6.IsWhole) (a7 : Memref sig .tc .vmem S2x1024x512 .f32) (h7 : a7.IsWhole) (a8 : Memref sig .tc .vmem S2x1024x512 .f32) (h8 : a8.IsWhole) (hc0 : cond0_0 i) (hc1 : ¬cond0_1 i)
    (x0 : Vec F S2x1024 .i32) (x1 : Vec F S1008x512 .f32) (x2 : Vec F S1024x512 .f32) (x3 : Vec F S1x512 .f32) :
    sout0_A_0 c i a3 h3 a4 h4 a5 h5 a6 h6 a7 h7 a8 h8 hc0 hc1 x0 x1 x2 x3 = step i x1 x0 k0_pay5 := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  simp only [View.readAt_eq_ld, h3.read_unread, h4.read_unread, View.ld_unit_zero (S := S1008x512) hz2]
  rw [canon_slabs_more, zero_read0, zero_read1]
  rfl

end Cert.KernelIdeal.Acc

end
-- ==== Proof.Spec.lean ====
/-
  The embedding layer as one function of the argument arrays, index by index, on the extended reals.

  A token word w selects row v of the table when w is the 32-bit word of v. The indicator of that, as an
  extended real, is 1 or 0 (hot w v). Entry (b, s, d) of the layer is

      (sum over v < 50400 of hot(x[b, s], v) * W[v, d])  +  bias[d]  +  pos[s, d].

  The sum over the table's 50400 rows is cut into 50 tiles of 1008 consecutive rows: upto w col K is the sum
  over the first K tiles, each further tile adds its own 1008 terms (upto_succ), and 50 tiles are the whole
  table (upto_all). Addition on the extended reals is commutative and associative, so no finiteness is used.

  A tile may also be addressed from inside: comparing w - 1008 k with the position j < 1008 inside tile k is
  comparing w with 1008 k + j, because subtraction of 32-bit words is a group operation and the words of
  natural numbers add and multiply as the numbers do (hot_shift). Nothing is asked of the size of k or j.
-/
import Idealize.ShloMosaic.PureOps.Ideal
import Idealize.ShloMosaic.Lib.ValueIdx

noncomputable section

open scoped BigOperators

namespace Cert.Embed

open Idealize.ShloMosaic Idealize.ShloMosaic.ValueIdx

/-- The indicator that the token word w is the word of the row number v: the one-bit equality converted to
    an extended real, 1 when they agree and 0 when they do not. -/
def hot (w : BitVec 32) (v : ℕ) : EReal :=
  FloatOps.uitofp (F := Ideal) .f32 (IntOp.cmpi .eq w (BitVec.ofNat 32 v))

/-- Widening a one-bit word to 32 bits and reading it signed gives the same real as reading the bit unsigned. -/
theorem sitofp_widen (b : BitVec 1) :
    FloatOps.sitofp (F := Ideal) .f32 (b.setWidth 32) = FloatOps.uitofp (F := Ideal) .f32 b := by
  have hb : b = 0#1 ∨ b = 1#1 := by
    have : b.toNat < 2 := b.isLt
    rcases Nat.lt_succ_iff_lt_or_eq.mp this with h | h
    · left; apply BitVec.eq_of_toNat_eq; simp at h; simpa using h
    · right; apply BitVec.eq_of_toNat_eq; simpa using h
  rcases hb with rfl | rfl <;> rfl

/-- The word of 1008 k + j is the word of j plus the word of k times the word 1008. -/
theorem word_tile (k j : ℕ) :
    BitVec.ofNat 32 (1008 * k + j) = BitVec.ofNat 32 j + BitVec.ofNat 32 k * 1008#32 := by
  rw [BitVec.ofNat_add, BitVec.ofNat_mul, BitVec.add_comm, BitVec.mul_comm]

/-- Position j inside tile k: the compare of the shifted token word with j is the compare of the token word
    with row 1008 k + j. -/
theorem hot_shift (w : BitVec 32) (k j : ℕ) :
    FloatOps.sitofp (F := Ideal) .f32
        ((IntOp.cmpi .eq (IntOp.subi w (IntOp.muli (BitVec.ofNat 32 k) 1008#32)) (BitVec.ofNat 32 j)).setWidth 32)
      = hot w (1008 * k + j) := by
  rw [sitofp_widen]
  unfold hot
  congr 1
  unfold IntOp.cmpi IntOp.subi IntOp.muli
  dsimp only
  congr 1
  rw [word_tile, Bool.eq_iff_iff, beq_iff_eq, beq_iff_eq]
  constructor
  · intro h; rw [← h, BitVec.sub_add_cancel]
  · intro h; rw [h, BitVec.add_sub_cancel]

/-- Term v of a token's row sum: the indicator times the table's column entry; nothing past the table's end. -/
def term (w : BitVec 32) (col : Fin 50400 → EReal) (v : ℕ) : EReal :=
  if h : v < 50400 then hot w v * col ⟨v, h⟩ else 0

theorem term_of_lt (w : BitVec 32) (col : Fin 50400 → EReal) (v : ℕ) (h : v < 50400) :
    term w col v = hot w v * col ⟨v, h⟩ := dif_pos h

/-- The row sum over the first K tiles of 1008 rows. -/
def upto (w : BitVec 32) (col : Fin 50400 → EReal) (K : ℕ) : EReal :=
  ∑ v ∈ Finset.range (1008 * K), term w col v

theorem upto_zero (w : BitVec 32) (col : Fin 50400 → EReal) : upto w col 0 = 0 := by
  unfold upto; rw [Nat.mul_zero, Finset.range_zero, Finset.sum_empty]

/-- One more tile adds its 1008 terms. -/
theorem upto_succ (w : BitVec 32) (col : Fin 50400 → EReal) (K : ℕ) :
    upto w col (K + 1) = upto w col K + ∑ j : Fin 1008, term w col (1008 * K + j.val) := by
  unfold upto
  rw [Nat.mul_succ, Finset.sum_range_add]
  rw [Finset.sum_range fun x => term w col (1008 * K + x)]

/-- Fifty tiles are the whole table. -/
theorem upto_all (w : BitVec 32) (col : Fin 50400 → EReal) :
    upto w col 50 = ∑ v : Fin 50400, hot w v.val * col v := by
  unfold upto
  rw [show 1008 * 50 = 50400 from rfl, Finset.sum_range]
  exact Finset.sum_congr rfl fun v _ => term_of_lt w col v.val v.isLt

/-- The embedding layer: entry (b, s, d) is the token's row of the table at column d, plus the bias at d,
    plus the position's entry at (s, d). -/
def embed (x : (⟨2, ![2, 2048]⟩ : Shape).Idx → BitVec 32) (W : (⟨2, ![50400, 4096]⟩ : Shape).Idx → EReal)
    (bias : (⟨1, ![4096]⟩ : Shape).Idx → EReal) (pos : (⟨2, ![2048, 4096]⟩ : Shape).Idx → EReal) :
    (⟨3, ![2, 2048, 4096]⟩ : Shape).Idx → EReal :=
  fun i => (∑ v : Fin 50400, hot (x (ix2 (i 0) (i 1))) v.val * W (ix2 v (i 2))) + bias (ix1 (i 2)) + pos (ix2 (i 1) (i 2))

/-- The same entry with the row sum written as fifty tiles. -/
theorem embed_apply (x : (⟨2, ![2, 2048]⟩ : Shape).Idx → BitVec 32) (W : (⟨2, ![50400, 4096]⟩ : Shape).Idx → EReal)
    (bias : (⟨1, ![4096]⟩ : Shape).Idx → EReal) (pos : (⟨2, ![2048, 4096]⟩ : Shape).Idx → EReal)
    (b : Fin 2) (s : Fin 2048) (d : Fin 4096) :
    embed x W bias pos (ix3 b s d)
      = upto (x (ix2 b s)) (fun v => W (ix2 v d)) 50 + bias (ix1 d) + pos (ix2 s d) := by
  rw [upto_all]; rfl

end Cert.Embed

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.LibCube.lean ====
/-
  Rank-three blocks read at an entry.

  A kernel that works on a batch of matrices keeps its per-row quantities as columns [A, B, 1] or rows
  [A, 1, B] and spreads them over [A, B, C] blocks; it sums a block along its last axis, or along its middle
  one; the host sums an [A, B, C] array over both trailing axes at once. Each lemma here reads one such
  operation at an entry named by its coordinates: the entry of the operand it is, or the finite sum over
  the coordinates of the summed axes, for any extents A, B, C.
-/
import Idealize.ShloMosaic.Lib.Pipeline.Value
import Idealize.ShloMosaic.Lib.ValueIdx
import Idealize.ShloMosaic.PureOps.Ideal.Laws

noncomputable section

namespace Cert.Lib.Cube

open Idealize.ShloMosaic Idealize.ShloMosaic.ValueIdx

variable {α : Type} {A B C : Nat}

/-! ## Casts between a matrix and a column or a row of it -/

/-- An [A, B] matrix viewed as [A, B, 1]: entry (r, p, 0) is entry (r, p). -/
theorem cast_col (v : (⟨2, ![A, B]⟩ : Shape).Idx → α) (h : (⟨2, ![A, B]⟩ : Shape).ShapeCasts ⟨3, ![A, B, 1]⟩)
    (r : Fin A) (p : Fin B) (z : Fin 1) : shapeCast ⟨3, ![A, B, 1]⟩ v h (ix3 r p z) = v (ix2 r p) :=
  shapeCast_apply v h (ix3 r p z) (ix2 r p) (by
    have hz : z.val = 0 := by have := z.isLt; omega
    rw [Shape.rowMajor_val_two, Shape.rowMajor_val_three]
    show r.val * B + p.val = (r.val * B + p.val) * 1 + z.val
    rw [hz, Nat.mul_one, Nat.add_zero])

/-- An [A, B] matrix viewed as [A, 1, B]: entry (r, 0, q) is entry (r, q). -/
theorem cast_row (v : (⟨2, ![A, B]⟩ : Shape).Idx → α) (h : (⟨2, ![A, B]⟩ : Shape).ShapeCasts ⟨3, ![A, 1, B]⟩)
    (r : Fin A) (z : Fin 1) (q : Fin B) : shapeCast ⟨3, ![A, 1, B]⟩ v h (ix3 r z q) = v (ix2 r q) :=
  shapeCast_apply v h (ix3 r z q) (ix2 r q) (by
    have hz : z.val = 0 := by have := z.isLt; omega
    rw [Shape.rowMajor_val_two, Shape.rowMajor_val_three]
    show r.val * B + q.val = (r.val * 1 + z.val) * B + q.val
    rw [hz, Nat.mul_one, Nat.add_zero])

/-- A [B, C] matrix viewed as [1, B, C]: entry (0, p, q) is entry (p, q). -/
theorem cast_slab (v : (⟨2, ![B, C]⟩ : Shape).Idx → α) (h : (⟨2, ![B, C]⟩ : Shape).ShapeCasts ⟨3, ![1, B, C]⟩)
    (z : Fin 1) (p : Fin B) (q : Fin C) : shapeCast ⟨3, ![1, B, C]⟩ v h (ix3 z p q) = v (ix2 p q) :=
  shapeCast_apply v h (ix3 z p q) (ix2 p q) (by
    have hz : z.val = 0 := by have := z.isLt; omega
    rw [Shape.rowMajor_val_two, Shape.rowMajor_val_three]
    show p.val * C + q.val = (z.val * B + p.val) * C + q.val
    rw [hz, Nat.zero_mul, Nat.zero_add])

/-- The transpose of the two trailing axes of a column [A, B, 1] is the row [A, 1, B]. -/
theorem transpose_col (v : (⟨3, ![A, B, 1]⟩ : Shape).Idx → α)
    (h : (⟨3, ![A, B, 1]⟩ : Shape).Transposes [0, 2, 1] ⟨3, ![A, 1, B]⟩) (r : Fin A) (z : Fin 1) (q : Fin B) :
    transpose ⟨3, ![A, 1, B]⟩ [0, 2, 1] v h (ix3 r z q) = v (ix3 r q z) :=
  transpose_apply [0, 2, 1] v h (ix3 r z q) (ix3 r q z) (fun b => match b with
    | ⟨0, _⟩ => rfl
    | ⟨1, _⟩ => rfl
    | ⟨2, _⟩ => rfl)

/-! ## Columns, rows and slabs spread over a block -/

/-- A column [A, B, 1] repeated along the last axis. -/
theorem spread_col (v : (⟨3, ![A, B, 1]⟩ : Shape).Idx → α) (h : (⟨3, ![A, B, 1]⟩ : Shape).Broadcasts ⟨3, ![A, B, C]⟩)
    (r : Fin A) (p : Fin B) (q : Fin C) : broadcastTo ⟨3, ![A, B, C]⟩ v h (ix3 r p q) = v (ix3 r p (0 : Fin 1)) :=
  broadcastTo_apply v h (ix3 r p q) (ix3 r p (0 : Fin 1)) (fun a => match a with
    | ⟨0, _⟩ => by
        show r.val = if A = 1 then 0 else r.val
        split
        · have := r.isLt; omega
        · rfl
    | ⟨1, _⟩ => by
        show p.val = if B = 1 then 0 else p.val
        split
        · have := p.isLt; omega
        · rfl
    | ⟨2, _⟩ => by show 0 = if (1 : Nat) = 1 then 0 else q.val; rw [if_pos rfl])

/-- A row [A, 1, C] repeated along the middle axis. -/
theorem spread_row (v : (⟨3, ![A, 1, C]⟩ : Shape).Idx → α) (h : (⟨3, ![A, 1, C]⟩ : Shape).Broadcasts ⟨3, ![A, B, C]⟩)
    (r : Fin A) (p : Fin B) (q : Fin C) : broadcastTo ⟨3, ![A, B, C]⟩ v h (ix3 r p q) = v (ix3 r (0 : Fin 1) q) :=
  broadcastTo_apply v h (ix3 r p q) (ix3 r (0 : Fin 1) q) (fun a => match a with
    | ⟨0, _⟩ => by
        show r.val = if A = 1 then 0 else r.val
        split
        · have := r.isLt; omega
        · rfl
    | ⟨1, _⟩ => by show 0 = if (1 : Nat) = 1 then 0 else p.val; rw [if_pos rfl]
    | ⟨2, _⟩ => by
        show q.val = if C = 1 then 0 else q.val
        split
        · have := q.isLt; omega
        · rfl)

/-- A slab [1, B, C] repeated along the leading axis. -/
theorem spread_slab (v : (⟨3, ![1, B, C]⟩ : Shape).Idx → α) (h : (⟨3, ![1, B, C]⟩ : Shape).Broadcasts ⟨3, ![A, B, C]⟩)
    (r : Fin A) (p : Fin B) (q : Fin C) : broadcastTo ⟨3, ![A, B, C]⟩ v h (ix3 r p q) = v (ix3 (0 : Fin 1) p q) :=
  broadcastTo_apply v h (ix3 r p q) (ix3 (0 : Fin 1) p q) (fun a => match a with
    | ⟨0, _⟩ => by show 0 = if (1 : Nat) = 1 then 0 else r.val; rw [if_pos rfl]
    | ⟨1, _⟩ => by
        show p.val = if B = 1 then 0 else p.val
        split
        · have := p.isLt; omega
        · rfl
    | ⟨2, _⟩ => by
        show q.val = if C = 1 then 0 else q.val
        split
        · have := q.isLt; omega
        · rfl)

/-- A column [A, 1] repeated along B lanes. -/
theorem spread_col2 (v : (⟨2, ![A, 1]⟩ : Shape).Idx → α) (h : (⟨2, ![A, 1]⟩ : Shape).Broadcasts ⟨2, ![A, B]⟩)
    (r : Fin A) (p : Fin B) : broadcastTo ⟨2, ![A, B]⟩ v h (ix2 r p) = v (ix2 r (0 : Fin 1)) :=
  broadcastTo_apply v h (ix2 r p) (ix2 r (0 : Fin 1)) (fun a => match a with
    | ⟨0, _⟩ => by
        show r.val = if A = 1 then 0 else r.val
        split
        · have := r.isLt; omega
        · rfl
    | ⟨1, _⟩ => by show 0 = if (1 : Nat) = 1 then 0 else p.val; rw [if_pos rfl])

/-! ## Lane numbers -/

/-- The lane number along the last axis of a matrix. -/
theorem iota_lane (κ : Kind) (h : (⟨2, ![A, B]⟩ : Shape).Iotas κ 32 [1]) (r : Fin A) (p : Fin B) :
    iota κ ⟨2, ![A, B]⟩ 32 [1] h (ix2 r p) = BitVec.ofNat 32 p.val :=
  iota_single_apply κ ⟨2, ![A, B]⟩ 32 1 h (ix2 r p)

/-- The row number of a matrix. -/
theorem iota_row (κ : Kind) (h : (⟨2, ![A, B]⟩ : Shape).Iotas κ 32 [0]) (r : Fin A) (p : Fin B) :
    iota κ ⟨2, ![A, B]⟩ 32 [0] h (ix2 r p) = BitVec.ofNat 32 r.val :=
  iota_single_apply κ ⟨2, ![A, B]⟩ 32 0 h (ix2 r p)

/-! ## Sums along an axis, on the extended reals -/

/-- The sum of an f32 block along its last axis, read at (r, p): the sum over q of the entries (r, p, q). -/
theorem sum_last (src : FVec Ideal ⟨3, ![A, B, C]⟩ .f32) (h : (⟨3, ![A, B, C]⟩ : Shape).Reduces [2] ⟨2, ![A, B]⟩)
    (hφ : FTy.f32 = FTy.f32 ∨ FTy.f32 = FTy.bf16) (hacc : (0x00000000#32 : BitVec 32) = 0x00000000#32) (r : Fin A) (p : Fin B) :
    multiReduction .add [2] ⟨2, ![A, B]⟩ src 0x00000000#32 h hφ hacc (ix2 r p) = ∑ q : Fin C, src (ix3 r p q) := by
  refine (Ideal.multiReduction_add_single src 0x00000000#32 h hφ hacc (ix2 r p)).trans ?_
  exact Finset.sum_congr rfl fun q _ => congrArg src (funext fun a => Fin.ext (by
    match a with
    | ⟨0, _⟩ => rfl
    | ⟨1, _⟩ => rfl
    | ⟨2, _⟩ => rfl))

/-- The sum of an f32 column block [A, B, 1] along its middle axis, read at (r, 0): the sum over p of the
    entries (r, p, 0). -/
theorem sum_mid (src : FVec Ideal ⟨3, ![A, B, 1]⟩ .f32) (h : (⟨3, ![A, B, 1]⟩ : Shape).Reduces [1] ⟨2, ![A, 1]⟩)
    (hφ : FTy.f32 = FTy.f32 ∨ FTy.f32 = FTy.bf16) (hacc : (0x00000000#32 : BitVec 32) = 0x00000000#32) (r : Fin A) (z : Fin 1) :
    multiReduction .add [1] ⟨2, ![A, 1]⟩ src 0x00000000#32 h hφ hacc (ix2 r z) = ∑ p : Fin B, src (ix3 r p z) := by
  refine (Ideal.multiReduction_add_single src 0x00000000#32 h hφ hacc (ix2 r z)).trans ?_
  exact Finset.sum_congr rfl fun p _ => congrArg src (funext fun a => Fin.ext (by
    match a with
    | ⟨0, _⟩ => rfl
    | ⟨1, _⟩ => rfl
    | ⟨2, _⟩ => rfl))

/-- The host's sum of an [A, B, C] array over both trailing axes, read at r: the initial value plus the
    double sum over (p, q) of the entries (r, p, q). -/
theorem host_sum_plane (h : (⟨3, ![A, B, C]⟩ : Shape).ReducesTo [1, 2] ⟨1, ![A]⟩)
    (x : (⟨3, ![A, B, C]⟩ : Shape).Idx → EReal) (init : EReal) (r : Fin A) :
    Ideal.hostReduceAdd h x init (ix1 r) = init + ∑ p : Fin B, ∑ q : Fin C, x (ix3 r p q) := by
  unfold Ideal.hostReduceAdd
  refine congrArg (init + ·) ?_
  rw [← Finset.sum_product']
  refine Finset.sum_nbij' (fun i => ((⟨(i 1).val, (i 1).isLt⟩ : Fin B), (⟨(i 2).val, (i 2).isLt⟩ : Fin C)))
    (fun pq => ix3 r pq.1 pq.2) (fun _ _ => Finset.mem_product.2 ⟨Finset.mem_univ _, Finset.mem_univ _⟩) ?_ ?_ ?_ ?_
  · intro pq _
    refine Finset.mem_filter.2 ⟨Finset.mem_univ _, ?_⟩
    funext b
    match b with
    | ⟨0, _⟩ => exact Fin.ext rfl
  · intro i hi
    have hd := congrFun (Finset.mem_filter.1 hi).2 (0 : Fin 1)
    have h0 : (i 0).val = r.val := congrArg Fin.val hd
    funext a
    match a with
    | ⟨0, _⟩ => exact Fin.ext h0.symm
    | ⟨1, _⟩ => exact Fin.ext rfl
    | ⟨2, _⟩ => exact Fin.ext rfl
  · intro pq _
    rfl
  · intro i hi
    have hd := congrFun (Finset.mem_filter.1 hi).2 (0 : Fin 1)
    have h0 : (i 0).val = r.val := congrArg Fin.val hd
    refine congrArg x (funext fun a => ?_)
    match a with
    | ⟨0, _⟩ => exact Fin.ext h0
    | ⟨1, _⟩ => exact Fin.ext rfl
    | ⟨2, _⟩ => exact Fin.ext rfl

end Cert.Lib.Cube

end
-- ==== Proof.LibRowForms.lean ====
/-
  General facts about arrays with a leading unit axis, read at an entry.

  * A [1, B, C] slab viewed as a [B, C] matrix reads, at (p, q), the slab at (0, p, q) (unslab_apply).
  * A [1, M] row viewed as a vector of length M reads, at p, the row at (0, p) (rowVec_apply).
  * A [1, N] row repeated down M rows reads, at (p, q), the row at (0, q) (rowBroadcast_apply).
  * A vector of length M viewed as a [1, M] row reads, at (0, p), the vector at p (vecRow_apply).
-/
import Idealize.ShloMosaic.Lib.ValueIdx
import Idealize.ShloMosaic.Lib.Pipeline.Value

noncomputable section

namespace Cert.Lib.RowForms

open Idealize.ShloMosaic Idealize.ShloMosaic.ValueIdx

variable {α : Type} {M N B C : Nat}

/-- A [1, B, C] slab viewed as a [B, C] matrix: entry (p, q) is entry (0, p, q). -/
theorem unslab_apply (v : (⟨3, ![1, B, C]⟩ : Shape).Idx → α) (h : (⟨3, ![1, B, C]⟩ : Shape).ShapeCasts ⟨2, ![B, C]⟩)
    (p : Fin B) (q : Fin C) : shapeCast ⟨2, ![B, C]⟩ v h (ix2 p q) = v (ix3 (0 : Fin 1) p q) :=
  shapeCast_apply v h (ix2 p q) (ix3 (0 : Fin 1) p q) (by
    rw [Shape.rowMajor_val_two, Shape.rowMajor_val_three]
    show (0 * B + p.val) * C + q.val = p.val * C + q.val
    rw [Nat.zero_mul, Nat.zero_add])

/-- A [1, M] row viewed as a vector of length M: entry p is entry (0, p). -/
theorem rowVec_apply (v : (⟨2, ![1, M]⟩ : Shape).Idx → α) (h : (⟨2, ![1, M]⟩ : Shape).ShapeCasts ⟨1, ![M]⟩)
    (p : Fin M) : shapeCast ⟨1, ![M]⟩ v h (ix1 p) = v (ix2 (0 : Fin 1) p) :=
  shapeCast_apply v h (ix1 p) (ix2 (0 : Fin 1) p) (by
    rw [Shape.rowMajor_val_one, Shape.rowMajor_val_two]
    show 0 * M + p.val = p.val
    rw [Nat.zero_mul, Nat.zero_add])

/-- A [1, N] row repeated down M rows: entry (p, q) is the row's entry (0, q). -/
theorem rowBroadcast_apply (v : (⟨2, ![1, N]⟩ : Shape).Idx → α) (h : (⟨2, ![1, N]⟩ : Shape).Broadcasts ⟨2, ![M, N]⟩)
    (p : Fin M) (q : Fin N) : broadcastTo ⟨2, ![M, N]⟩ v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by
        show q.val = if N = 1 then 0 else q.val
        split
        · have := q.isLt; omega
        · rfl)

/-- A vector of length M viewed as a [1, M] row: entry (0, p) is entry p. -/
theorem vecRow_apply (v : (⟨1, ![M]⟩ : Shape).Idx → α) (h : (⟨1, ![M]⟩ : Shape).ShapeCasts ⟨2, ![1, M]⟩)
    (p : Fin M) : shapeCast ⟨2, ![1, M]⟩ v h (ix2 (0 : Fin 1) p) = v (ix1 p) :=
  shapeCast_apply v h (ix2 (0 : Fin 1) p) (ix1 p) (by
    rw [Shape.rowMajor_val_one, Shape.rowMajor_val_two]
    show p.val = 0 * M + p.val
    rw [Nat.zero_mul, Nat.zero_add])

end Cert.Lib.RowForms

end
-- ==== Proof.Entries.lean ====
/-
  One step of the accumulation, and the output block, read at an entry on the extended reals.

  Entry (r, q) of the product of a batch row's one-hot block with the table block is the sum over the tile's
  1008 positions j of (the token word at r, shifted by the tile's first row number, compared with j) times the
  table block's entry (j, q); the shifted compare is the compare of the token word with row 1008 k + j of
  the whole table (Spec: hot_shift). So one step adds to the accumulator's entry (b, r, q) exactly the tile's
  terms of the token's row sum (step_apply), and the output block's entry (b, r, q) is the accumulator's entry
  plus the bias row's entry q plus the position block's entry (r, q) (emit_apply).
-/
import proofs.«178647_j39307540693313_2_alg».proof.Proof.Pieces
import proofs.«178647_j39307540693313_2_alg».proof.Proof.Spec
import proofs.«178647_j39307540693313_2_alg».proof.Proof.LibPlainDot
import proofs.«178647_j39307540693313_2_alg».proof.Proof.LibColumn
import proofs.«178647_j39307540693313_2_alg».proof.Proof.LibCube
import proofs.«178647_j39307540693313_2_alg».proof.Proof.LibRowForms

noncomputable section

open scoped BigOperators

namespace Cert.KernelIdeal.Acc

open Cert.KernelIdeal Cert.KernelIdeal.Gen
open Idealize.ShloMosaic Idealize.ShloMosaic.TcCoe Idealize.ShloMosaic.ValueIdx Idealize.SL.Sem
open Cert.Embed

/-! ## Where a slab's and a row's local indices sit in the whole block -/

theorem slab0_emb (r : Fin 1024) (q : Fin 512) : slab0.emb (ix3 (0 : Fin 1) r q) = ix3 (0 : Fin 2) r q :=
  funext fun a => Fin.ext (by
    match a with
    | ⟨0, _⟩ => rfl
    | ⟨1, _⟩ => show 0 + 1 * r.val = r.val; omega
    | ⟨2, _⟩ => show 0 + 1 * q.val = q.val; omega)

theorem slab1_emb (r : Fin 1024) (q : Fin 512) : slab1.emb (ix3 (0 : Fin 1) r q) = ix3 (1 : Fin 2) r q :=
  funext fun a => Fin.ext (by
    match a with
    | ⟨0, _⟩ => rfl
    | ⟨1, _⟩ => show 0 + 1 * r.val = r.val; omega
    | ⟨2, _⟩ => show 0 + 1 * q.val = q.val; omega)

theorem row0_emb (r : Fin 1024) : row0.emb (ix2 (0 : Fin 1) r) = ix2 (0 : Fin 2) r :=
  funext fun a => Fin.ext (by
    match a with
    | ⟨0, _⟩ => rfl
    | ⟨1, _⟩ => show 0 + 1 * r.val = r.val; omega)

theorem row1_emb (r : Fin 1024) : row1.emb (ix2 (0 : Fin 1) r) = ix2 (1 : Fin 2) r :=
  funext fun a => Fin.ext (by
    match a with
    | ⟨0, _⟩ => rfl
    | ⟨1, _⟩ => show 0 + 1 * r.val = r.val; omega)

section slabs
variable {F : FTy → Type} [FloatOps F]

/-- A buffer written slab by slab, read in slab 1. -/
theorem slabs_apply1 (w1 w0 : S1x1024x512.Idx → Elt F .f32) (r : Fin 1024) (q : Fin 512) :
    slabs w1 w0 (ix3 (1 : Fin 2) r q) = w1 (ix3 (0 : Fin 1) r q) := by
  rw [← slab1_emb]
  exact View.canon_cons_emb slab1 w1 _ _

/-- A buffer written slab by slab, read in slab 0. -/
theorem slabs_apply0 (w1 w0 : S1x1024x512.Idx → Elt F .f32) (r : Fin 1024) (q : Fin 512) :
    slabs w1 w0 (ix3 (0 : Fin 2) r q) = w0 (ix3 (0 : Fin 1) r q) := by
  have hn : (ix3 (0 : Fin 2) r q : S2x1024x512.Idx) ∉ slab1.set := by
    intro hmem
    have h := (Rect.mem_set_unit.mp hmem) 0
    exact Nat.not_succ_le_zero 0 h.1
  refine (View.canon_cons_of_not_mem (⟨slab1, w1⟩ : View.Piece (Elt F) S2x1024x512 .f32) _ hn).trans ?_
  rw [← slab0_emb]
  exact View.canon_cons_emb slab0 w0 [] _

end slabs

/-! ## The payloads at an entry -/

/-- Entry (r, j) of a batch row's one-hot block at tile (i 2), times nothing yet: the indicator of the token
    word at r against row 1008 (i 2) + j; and so entry (r, q) of its product with the table block. -/
theorem pay8_apply (i : grid0.Coords) (w : Vec Ideal S1008x512 .f32) (v : Vec Ideal S1x1024 .i32)
    (r : Fin 1024) (q : Fin 512) :
    k0_pay8 i w v (ix2 r q)
      = ∑ j : Fin 1008, hot (v (ix2 (0 : Fin 1) r)) (1008 * (i 2).val + j.val) * w (ix2 j q) := by
  unfold k0_pay8 k0_pay6
  dsimp only
  refine (Cert.Lib.PlainDot.matmul_zero_apply none _ _ r q).trans ?_
  refine Finset.sum_congr rfl fun j _ => ?_
  congr 1
  show FloatOps.sitofp (F := Ideal) .f32
      ((IntOp.cmpi .eq (broadcastTo S1024x1008 _ _ (ix2 r j)) (broadcastTo S1024x1008 _ _ (ix2 r j))).setWidth 32) = _
  rw [Cert.Lib.Column.colBroadcast_apply, Cert.Lib.Column.col_apply, Cert.Lib.RowForms.rowBroadcast_apply,
    Cert.Lib.Cube.iota_lane]
  show FloatOps.sitofp (F := Ideal) .f32
      ((IntOp.cmpi .eq (IntOp.subi (shapeCast S1024 v _ (ix1 r)) _) _).setWidth 32) = _
  rw [Cert.Lib.RowForms.rowVec_apply]
  exact hot_shift _ _ _

/-- Slab 1's new contents: the old entry plus the tile's terms. -/
theorem pay1_apply (i : grid0.Coords) (w : Vec Ideal S1008x512 .f32) (v : Vec Ideal S1x1024 .i32)
    (old : Vec Ideal S1x1024x512 .f32) (r : Fin 1024) (q : Fin 512) :
    k0_pay1 (k0_pay8 i w v) old (ix3 (0 : Fin 1) r q)
      = old (ix3 (0 : Fin 1) r q)
        + ∑ j : Fin 1008, hot (v (ix2 (0 : Fin 1) r)) (1008 * (i 2).val + j.val) * w (ix2 j q) := by
  unfold k0_pay1
  dsimp only
  refine (Cert.Lib.Cube.cast_slab _ _ (0 : Fin 1) r q).trans ?_
  show shapeCast S1024x512 old _ (ix2 r q) + k0_pay8 i w v (ix2 r q) = _
  rw [Cert.Lib.RowForms.unslab_apply, pay8_apply]

/-- Slab 0's new contents: the old entry plus the tile's terms. -/
theorem pay7_apply (i : grid0.Coords) (w : Vec Ideal S1008x512 .f32) (v : Vec Ideal S1x1024 .i32)
    (old : Vec Ideal S1x1024x512 .f32) (r : Fin 1024) (q : Fin 512) :
    k0_pay7 i w v old (ix3 (0 : Fin 1) r q)
      = old (ix3 (0 : Fin 1) r q)
        + ∑ j : Fin 1008, hot (v (ix2 (0 : Fin 1) r)) (1008 * (i 2).val + j.val) * w (ix2 j q) := by
  have e : k0_pay7 i w v old = k0_pay1 (k0_pay8 i w v) old := rfl
  rw [e, pay1_apply]

/-- The output's slab 0: the accumulator's entry plus the bias row's entry plus the position block's entry. -/
theorem pay3_apply (b : Vec Ideal S1x512 .f32) (p : Vec Ideal S1024x512 .f32) (acc : Vec Ideal S1x1024x512 .f32)
    (r : Fin 1024) (q : Fin 512) :
    k0_pay3 b p acc (ix3 (0 : Fin 1) r q) = acc (ix3 (0 : Fin 1) r q) + b (ix2 (0 : Fin 1) q) + p (ix2 r q) := by
  unfold k0_pay3 k0_pay2
  dsimp only
  refine (Cert.Lib.Cube.cast_slab _ _ (0 : Fin 1) r q).trans ?_
  show shapeCast S1024x512 acc _ (ix2 r q) + broadcastTo S1024x512 _ _ (ix2 r q) + p (ix2 r q) = _
  rw [Cert.Lib.RowForms.unslab_apply, Cert.Lib.RowForms.rowBroadcast_apply, shapeCast_self]

/-- The output's slab 1: the same. -/
theorem pay4_apply (b : Vec Ideal S1x512 .f32) (p : Vec Ideal S1024x512 .f32) (acc : Vec Ideal S1x1024x512 .f32)
    (r : Fin 1024) (q : Fin 512) :
    k0_pay4 b p acc (ix3 (0 : Fin 1) r q) = acc (ix3 (0 : Fin 1) r q) + b (ix2 (0 : Fin 1) q) + p (ix2 r q) :=
  pay3_apply b p acc r q

/-! ## A step and the output block at an entry -/

/-- One step adds, at entry (b, r, q), the tile's terms of the row sum of the token at (b, r). -/
theorem step_apply (i : grid0.Coords) (w : Vec Ideal S1008x512 .f32) (x : Vec Ideal S2x1024 .i32)
    (acc : Vec Ideal S2x1024x512 .f32) (b : Fin 2) (r : Fin 1024) (q : Fin 512) :
    step i w x acc (ix3 b r q)
      = acc (ix3 b r q) + ∑ j : Fin 1008, hot (x (ix2 b r)) (1008 * (i 2).val + j.val) * w (ix2 j q) := by
  have hb : b = 0 ∨ b = 1 := by fin_cases b <;> simp
  unfold step
  rcases hb with rfl | rfl
  · rw [slabs_apply0, pay7_apply]
    show acc (slab0.emb _) + ∑ j : Fin 1008, hot (x (row0.emb _)) _ * _ = _
    rw [slab0_emb, row0_emb]
  · rw [slabs_apply1, pay1_apply]
    show acc (slab1.emb _) + ∑ j : Fin 1008, hot (x (row1.emb _)) _ * _ = _
    rw [slab1_emb, row1_emb]

/-- The output block's entry (b, r, q). -/
theorem emit_apply (bias : Vec Ideal S1x512 .f32) (p : Vec Ideal S1024x512 .f32) (acc : Vec Ideal S2x1024x512 .f32)
    (b : Fin 2) (r : Fin 1024) (q : Fin 512) :
    emit bias p acc (ix3 b r q) = acc (ix3 b r q) + bias (ix2 (0 : Fin 1) q) + p (ix2 r q) := by
  have hb : b = 0 ∨ b = 1 := by fin_cases b <;> simp
  unfold emit
  rcases hb with rfl | rfl
  · rw [slabs_apply0, pay3_apply]
    show acc (slab0.emb _) + _ + _ = _
    rw [slab0_emb]
  · rw [slabs_apply1, pay4_apply]
    show acc (slab1.emb _) + _ + _ = _
    rw [slab1_emb]

/-- The zero array's entries are the real number zero. -/
theorem zero_apply (y : S2x1024x512.Idx) : (k0_pay5 (F := Ideal)) y = 0 := by
  unfold k0_pay5
  rw [shapeCast_self]
  exact Ideal.ofBits_zero_f32

end Cert.KernelIdeal.Acc

end
-- ==== Proof.Blocks.lean ====
/-
  The blocks a grid point is given, as reads of the argument arrays, and one step of the accumulation at a point.

  The grid is (2, 8, 50): point t = 400 m + 50 n + k works on rows 1024 m .. 1024 m + 1023 of the sequence,
  columns 512 n .. 512 n + 511 of the model axis and rows 1008 k .. 1008 k + 1007 of the table. The blocks the
  point is given are the argument arrays read at those offsets (tok_apply, tab_apply, pos_apply, bias_apply; the
  index maps are decided once over the grid, idx_facts). The bias row's array is the bias vector viewed as a
  [1, 4096] row by the host before the launch (bias_row). A step at point t therefore takes the row sum of a
  token over the first t % 50 tiles to the row sum over one tile more (step_at).
-/
import proofs.«178647_j39307540693313_2_alg».proof.Proof.Entries
import proofs.«178647_j39307540693313_2_alg».proof.Proof.Gen.KernelIdeal.Value
import Idealize.ShloMosaic.Lib.StableHlo.Run

noncomputable section

open scoped BigOperators

namespace Cert.KernelIdeal.Acc

open Cert.KernelIdeal Cert.KernelIdeal.Gen
open Idealize.ShloMosaic Idealize.ShloMosaic.TcCoe Idealize.ShloMosaic.ValueIdx Idealize.SL.Sem
open Idealize.ShloMosaic.Pipeline (Dat)
open Cert.Embed

variable (m : (ℓ : Loc nD τ sig) → Buf (Elt Ideal) ℓ)

/-- The tile number of a point and the block indices of the five windows, decided once over the grid. -/
theorem idx_facts : ∀ t : Fin cfg0.N,
    ((grid0.coords t) 2).val = t.val % 50
    ∧ win0_0.index t (0 : Fin 2) = 0 ∧ win0_0.index t (1 : Fin 2) = t.val / 400
    ∧ win0_1.index t (0 : Fin 2) = t.val % 50 ∧ win0_1.index t (1 : Fin 2) = (t.val / 50) % 8
    ∧ win0_2.index t (0 : Fin 2) = t.val / 400 ∧ win0_2.index t (1 : Fin 2) = (t.val / 50) % 8
    ∧ win0_3.index t (0 : Fin 2) = 0 ∧ win0_3.index t (1 : Fin 2) = (t.val / 50) % 8
    ∧ win0_4.index t (0 : Fin 3) = 0 ∧ win0_4.index t (1 : Fin 3) = t.val / 400
    ∧ win0_4.index t (2 : Fin 3) = (t.val / 50) % 8 :=
  (by decide +kernel : ∀ t : Fin grid0.N, _)

/-! ## The input blocks as reads of the argument arrays -/

/-- The token block's entry (b, r) at point t is the token array's entry (b, 1024 (t / 400) + r). -/
theorem tok_apply (c : Dev nD) (t : Fin cfg0.N) (b : Fin 2) (r : Fin 1024) (s : Fin 2048)
    (hs : s.val = 1024 * (t.val / 400) + r.val) :
    (iblk m c 0 t : Vec Ideal S2x1024 .i32) (ix2 b r) = V m c main_arg0 (ix2 b s) := by
  obtain ⟨-, e0, e1, -⟩ := idx_facts t
  show V m c main_arg0 (((cfg0.win 0).blk t).view.emb (ix2 b r)) = _
  refine congrArg (V m c main_arg0) (funext fun a => Fin.ext ?_)
  match a with
  | ⟨0, _⟩ => show win0_0.index t (0 : Fin 2) * 2 + 1 * b.val = b.val; rw [e0]; omega
  | ⟨1, _⟩ => show win0_0.index t (1 : Fin 2) * 1024 + 1 * r.val = s.val; rw [e1]; omega

/-- The table block's entry (j, q) at point t is the table's entry (1008 (t % 50) + j, 512 ((t / 50) % 8) + q). -/
theorem tab_apply (c : Dev nD) (t : Fin cfg0.N) (j : Fin 1008) (q : Fin 512) (v : Fin 50400) (d : Fin 4096)
    (hv : v.val = 1008 * (t.val % 50) + j.val) (hd : d.val = 512 * ((t.val / 50) % 8) + q.val) :
    (iblk m c 1 t : Vec Ideal S1008x512 .f32) (ix2 j q) = V m c main_arg1 (ix2 v d) := by
  obtain ⟨-, -, -, e0, e1, -⟩ := idx_facts t
  show V m c main_arg1 (((cfg0.win 1).blk t).view.emb (ix2 j q)) = _
  refine congrArg (V m c main_arg1) (funext fun a => Fin.ext ?_)
  match a with
  | ⟨0, _⟩ => show win0_1.index t (0 : Fin 2) * 1008 + 1 * j.val = v.val; rw [e0]; omega
  | ⟨1, _⟩ => show win0_1.index t (1 : Fin 2) * 512 + 1 * q.val = d.val; rw [e1]; omega

/-- The position block's entry (r, q) at point t is the position array's entry (1024 (t / 400) + r, 512 ((t / 50) % 8) + q). -/
theorem pos_apply (c : Dev nD) (t : Fin cfg0.N) (r : Fin 1024) (q : Fin 512) (s : Fin 2048) (d : Fin 4096)
    (hs : s.val = 1024 * (t.val / 400) + r.val) (hd : d.val = 512 * ((t.val / 50) % 8) + q.val) :
    (iblk m c 2 t : Vec Ideal S1024x512 .f32) (ix2 r q) = V m c main_arg3 (ix2 s d) := by
  obtain ⟨-, -, -, -, -, e0, e1, -⟩ := idx_facts t
  show V m c main_arg3 (((cfg0.win 2).blk t).view.emb (ix2 r q)) = _
  refine congrArg (V m c main_arg3) (funext fun a => Fin.ext ?_)
  match a with
  | ⟨0, _⟩ => show win0_2.index t (0 : Fin 2) * 1024 + 1 * r.val = s.val; rw [e0]; omega
  | ⟨1, _⟩ => show win0_2.index t (1 : Fin 2) * 512 + 1 * q.val = d.val; rw [e1]; omega

/-- The bias row the region finds is the bias vector viewed as a [1, 4096] row. -/
theorem bias_row (c : Dev nD) (d : Fin 4096) :
    (V m c main_v0 : S1x4096.Idx → Elt Ideal .f32) (ix2 (0 : Fin 1) d) = m ((c : Thread nD τ).loc main_arg2) (ix1 d) := by
  have e : (V m c main_v0 : S1x4096.Idx → Elt Ideal .f32)
      = shapeCast S1x4096 (m ((c : Thread nD τ).loc main_arg2)) Facts₀.shapeCasts_S4096_S1x4096 := by
    dsimp only [Gen.V, Gen.hostOps0]; after_results; rfl
  rw [e]
  exact Cert.Lib.RowForms.vecRow_apply _ _ d

/-- The bias block's entry (0, q) at point t is the bias vector's entry 512 ((t / 50) % 8) + q. -/
theorem bias_apply (c : Dev nD) (t : Fin cfg0.N) (q : Fin 512) (d : Fin 4096)
    (hd : d.val = 512 * ((t.val / 50) % 8) + q.val) :
    (iblk m c 3 t : Vec Ideal S1x512 .f32) (ix2 (0 : Fin 1) q) = m ((c : Thread nD τ).loc main_arg2) (ix1 d) := by
  obtain ⟨-, -, -, -, -, -, -, e0, e1, -⟩ := idx_facts t
  rw [← bias_row m c d]
  show V m c main_v0 (((cfg0.win 3).blk t).view.emb (ix2 (0 : Fin 1) q)) = _
  refine congrArg (V m c main_v0) (funext fun a => Fin.ext ?_)
  match a with
  | ⟨0, _⟩ => show win0_3.index t (0 : Fin 2) * 1 + 1 * 0 = 0; rw [e0]
  | ⟨1, _⟩ => show win0_3.index t (1 : Fin 2) * 512 + 1 * q.val = d.val; rw [e1]; omega

/-! ## One step at a point, in terms of the argument arrays -/

/-- A step at point t takes the row sum over t % 50 tiles to the row sum over one tile more. -/
theorem step_at (c : Dev nD) (t : Fin cfg0.N) (acc : Vec Ideal S2x1024x512 .f32) (b : Fin 2) (r : Fin 1024) (q : Fin 512)
    (s : Fin 2048) (d : Fin 4096) (hs : s.val = 1024 * (t.val / 400) + r.val) (hd : d.val = 512 * ((t.val / 50) % 8) + q.val)
    (hacc : acc (ix3 b r q) = upto (V m c main_arg0 (ix2 b s)) (fun v => V m c main_arg1 (ix2 v d)) (t.val % 50)) :
    step (grid0.coords t) (iblk m c 1 t) (iblk m c 0 t) acc (ix3 b r q)
      = upto (V m c main_arg0 (ix2 b s)) (fun v => V m c main_arg1 (ix2 v d)) (t.val % 50 + 1) := by
  obtain ⟨ek, -⟩ := idx_facts t
  rw [step_apply, hacc, upto_succ, tok_apply m c t b r s hs, ek]
  congr 1
  refine Finset.sum_congr rfl fun j _ => ?_
  have hlt : 1008 * (t.val % 50) + j.val < 50400 := by have := j.isLt; omega
  rw [term_of_lt _ _ _ hlt, tab_apply m c t j q ⟨_, hlt⟩ d rfl hd]

end Cert.KernelIdeal.Acc

end
-- ==== Proof.Accum.lean ====
/-
  The accumulator after every grid point.

  The frame records what the accumulator holds after each point by recursion on the point: at a first tile
  (t % 50 = 0) what the body leaves from a zeroed accumulator, at a later tile what it leaves from what the
  point before left. Each is one step (scratch_first, scratch_next). So after point t the accumulator's entry
  (b, r, q) holds the row sum of the token at (b, 1024 (t / 400) + r) against column 512 ((t / 50) % 8) + q of
  the table over the first t % 50 + 1 tiles (scratch_eq), by induction on the point: a later tile's point has
  the same row and column blocks as the point before it.
-/
import proofs.«178647_j39307540693313_2_alg».proof.Proof.Blocks

noncomputable section

open scoped BigOperators

namespace Cert.KernelIdeal.Acc

open Cert.KernelIdeal Cert.KernelIdeal.Gen
open Idealize.ShloMosaic Idealize.ShloMosaic.TcCoe Idealize.ShloMosaic.ValueIdx Idealize.SL.Sem
open Idealize.ShloMosaic.Pipeline (Dat)
open Cert.Embed

variable (m : (ℓ : Loc nD τ sig) → Buf (Elt Ideal) ℓ)

/-! ## What the frame's record of the accumulator is, point by point -/

/-- At a first tile the accumulator is one step from the zero array. -/
theorem scratch_first (c : Dev nD) (t : Fin cfg0.N) (h0 : t.val % 50 = 0) :
    (outsAt0 m c t.val t.isLt).2 = step (grid0.coords t) (iblk m c 1 t) (iblk m c 0 t) (k0_pay5 (F := Ideal)) := by
  have h1 : ¬t.val % 50 = 49 := by omega
  rw [outsAt0_A m c t h0 h1]
  dsimp only
  exact scratch_A (F := Ideal) c (grid0.coords t) (ms0_0 t) (hs0_0 t) (ms0_1 t) (hs0_1 t) (ms0_2 t) (hs0_2 t) (ms0_3 t) (hs0_3 t)
    (ms0_4 t) (hs0_4 t) scM0_0 (Memref.isWhole_whole _) ((hcond0_0 t).mpr h0) (fun h => h1 ((hcond0_1 t).mp h))
    (iblk m c 0 t) (iblk m c 1 t) (iblk m c 2 t) (iblk m c 3 t)

/-- At a middle tile it is one step on from what the point before left. -/
theorem scratch_mid (c : Dev nD) (t : Fin cfg0.N) (h0 : ¬t.val % 50 = 0) (h1 : ¬t.val % 50 = 49) :
    (outsAt0 m c t.val t.isLt).2
      = step (grid0.coords t) (iblk m c 1 t) (iblk m c 0 t) (outsAt0 m c (t.val - 1) (Nat.lt_of_le_of_lt (Nat.sub_le _ _) t.isLt)).2 := by
  rw [outsAt0_B m c t h0 h1]
  dsimp only
  exact scratch_B (F := Ideal) c (grid0.coords t) (ms0_0 t) (hs0_0 t) (ms0_1 t) (hs0_1 t) (ms0_2 t) (hs0_2 t) (ms0_3 t) (hs0_3 t)
    (ms0_4 t) (hs0_4 t) scM0_0 (Memref.isWhole_whole _) (fun h => h0 ((hcond0_0 t).mp h)) (fun h => h1 ((hcond0_1 t).mp h))
    (iblk m c 0 t) (iblk m c 1 t) (iblk m c 2 t) (iblk m c 3 t) (outsAt0 m c (t.val - 1) (Nat.lt_of_le_of_lt (Nat.sub_le _ _) t.isLt)).2

/-- At the last tile too. -/
theorem scratch_last (c : Dev nD) (t : Fin cfg0.N) (h0 : ¬t.val % 50 = 0) (h1 : t.val % 50 = 49) :
    (outsAt0 m c t.val t.isLt).2
      = step (grid0.coords t) (iblk m c 1 t) (iblk m c 0 t) (outsAt0 m c (t.val - 1) (Nat.lt_of_le_of_lt (Nat.sub_le _ _) t.isLt)).2 := by
  rw [outsAt0_C m c t h0 h1]
  dsimp only
  exact scratch_C (F := Ideal) c (grid0.coords t) (ms0_0 t) (hs0_0 t) (ms0_1 t) (hs0_1 t) (ms0_2 t) (hs0_2 t) (ms0_3 t) (hs0_3 t)
    (ms0_4 t) (hs0_4 t) scM0_0 (Memref.isWhole_whole _) (fun h => h0 ((hcond0_0 t).mp h)) ((hcond0_1 t).mpr h1)
    (iblk m c 0 t) (iblk m c 1 t) (iblk m c 2 t) (iblk m c 3 t) (outsAt0 m c (t.val - 1) (Nat.lt_of_le_of_lt (Nat.sub_le _ _) t.isLt)).2

/-- At a later tile it is one step on from what the point before left. -/
theorem scratch_next (c : Dev nD) (t : Fin cfg0.N) (h0 : ¬t.val % 50 = 0) :
    (outsAt0 m c t.val t.isLt).2
      = step (grid0.coords t) (iblk m c 1 t) (iblk m c 0 t) (outsAt0 m c (t.val - 1) (Nat.lt_of_le_of_lt (Nat.sub_le _ _) t.isLt)).2 := by
  by_cases h1 : t.val % 50 = 49
  · exact scratch_last m c t h0 h1
  · exact scratch_mid m c t h0 h1

/-- THE ACCUMULATOR after point n: entry (b, r, q) is the row sum of the token at (b, s) against column d of the
    table over the first n % 50 + 1 tiles, where s = 1024 (n / 400) + r and d = 512 ((n / 50) % 8) + q. -/
theorem scratch_eq (c : Dev nD) : ∀ (n : ℕ) (h : n < cfg0.N) (b : Fin 2) (r : Fin 1024) (q : Fin 512)
    (s : Fin 2048) (d : Fin 4096), s.val = 1024 * (n / 400) + r.val → d.val = 512 * ((n / 50) % 8) + q.val →
    (outsAt0 m c n h).2 (ix3 b r q)
      = upto (V m c main_arg0 (ix2 b s)) (fun v => V m c main_arg1 (ix2 v d)) (n % 50 + 1)
  | 0, h, b, r, q, s, d, hs, hd => by
    have e := scratch_first m c ⟨0, h⟩ (Nat.zero_mod 50)
    have e' : (outsAt0 m c 0 h).2 = step (grid0.coords ⟨0, h⟩) (iblk m c 1 ⟨0, h⟩) (iblk m c 0 ⟨0, h⟩) (k0_pay5 (F := Ideal)) := e
    rw [e']
    exact step_at m c ⟨0, h⟩ (k0_pay5 (F := Ideal)) b r q s d hs hd (by rw [zero_apply]; exact (upto_zero _ _).symm)
  | n + 1, h, b, r, q, s, d, hs, hd => by
    by_cases h0 : (n + 1) % 50 = 0
    · have e : (outsAt0 m c (n + 1) h).2
          = step (grid0.coords ⟨n + 1, h⟩) (iblk m c 1 ⟨n + 1, h⟩) (iblk m c 0 ⟨n + 1, h⟩) (k0_pay5 (F := Ideal)) :=
        scratch_first m c ⟨n + 1, h⟩ h0
      rw [e]
      have hst := step_at m c ⟨n + 1, h⟩ (k0_pay5 (F := Ideal)) b r q s d hs hd
        (by rw [zero_apply]; show (0 : EReal) = upto _ _ ((n + 1) % 50); rw [h0]; exact (upto_zero _ _).symm)
      exact hst
    · have e : (outsAt0 m c (n + 1) h).2
          = step (grid0.coords ⟨n + 1, h⟩) (iblk m c 1 ⟨n + 1, h⟩) (iblk m c 0 ⟨n + 1, h⟩)
              (outsAt0 m c n (Nat.lt_of_succ_lt h)).2 :=
        scratch_next m c ⟨n + 1, h⟩ h0
      rw [e]
      have hN : n + 1 < 800 := lt_of_lt_of_eq h (show cfg0.N = 800 from N_0)
      have ih := scratch_eq c n (Nat.lt_of_succ_lt h) b r q s d (by omega) (by omega)
      have hk : n % 50 + 1 = (n + 1) % 50 := by omega
      exact step_at m c ⟨n + 1, h⟩ _ b r q s d hs hd (by rw [ih, hk])

end Cert.KernelIdeal.Acc

end
-- ==== Proof.KernelValue.lean ====
/-
  The kernel's result array is the embedding layer of its arguments.

  Only the points of the last vocabulary tile (t % 50 = 49) write the output block back. At such a point the
  block written is, entry by entry, the accumulator after the point — by then the token's whole row sum, all
  fifty tiles — plus the bias entry plus the position entry: the specification's function read through the
  block (flushed_eq). Block (0, m, n) covers rows 1024 m .. and columns 512 n .. of the result, and the sixteen
  last-tile points have the sixteen pairs (m, n): entry (b, s, d) is in the block of the point
  400 (s / 1024) + 50 (d / 512) + 49 (cover). So the array after the run is the specification's function (final).
-/
import proofs.«178647_j39307540693313_2_alg».proof.Proof.Accum

noncomputable section

open scoped BigOperators

namespace Cert.KernelIdeal.Acc

open Cert.KernelIdeal Cert.KernelIdeal.Gen
open Idealize.ShloMosaic Idealize.ShloMosaic.TcCoe Idealize.ShloMosaic.ValueIdx Idealize.SL.Sem
open Idealize.ShloMosaic.Pipeline (Dat)
open Cert.Embed

variable (m : (ℓ : Loc nD τ sig) → Buf (Elt Ideal) ℓ) (ρ : Dev nD → PrngReg)

/-- The embedding layer of the argument arrays as the region finds them. -/
abbrev layer (c : Dev nD) : S2x2048x4096.Idx → Elt Ideal .f32 :=
  embed (V m c main_arg0) (V m c main_arg1) (m ((c : Thread nD τ).loc main_arg2)) (V m c main_arg3)

/-- The output block at a last-tile point, at a local entry y, is the layer at the entry i of the result that
    y is in the point's block. -/
theorem out_entry (c : Dev nD) (t : Fin cfg0.N) (h49 : t.val % 50 = 49) (y : S2x1024x512.Idx) (i : S2x2048x4096.Idx)
    (hi0 : (i 0).val = (y 0).val) (hi1 : (i 1).val = 1024 * (t.val / 400) + (y 1).val)
    (hi2 : (i 2).val = 512 * ((t.val / 50) % 8) + (y 2).val) :
    emit (iblk m c 3 t) (iblk m c 2 t) (outsAt0 m c t.val t.isLt).2 y = layer m c i := by
  obtain ⟨b, r, q, rfl⟩ : ∃ (b : Fin 2) (r : Fin 1024) (q : Fin 512), y = ix3 b r q := ⟨y 0, y 1, y 2, eq_ix3 y⟩
  obtain ⟨b', s, d, rfl⟩ : ∃ (b' : Fin 2) (s : Fin 2048) (d : Fin 4096), i = ix3 b' s d := ⟨i 0, i 1, i 2, eq_ix3 i⟩
  have hb : b' = b := Fin.ext hi0
  subst hb
  have hs : s.val = 1024 * (t.val / 400) + r.val := hi1
  have hd : d.val = 512 * ((t.val / 50) % 8) + q.val := hi2
  rw [emit_apply, scratch_eq m c t.val t.isLt b' r q s d hs hd, h49, bias_apply m c t q d hd, pos_apply m c t r q s d hs hd]
  exact (embed_apply _ _ _ _ b' s d).symm

/-- At a last-tile point the output block is written from the accumulator after the point's step. -/
theorem out_last (c : Dev nD) (t : Fin cfg0.N) (h0 : ¬t.val % 50 = 0) (h49 : t.val % 50 = 49) :
    (outsAt0 m c t.val t.isLt).1
      = emit (iblk m c 3 t) (iblk m c 2 t)
          (step (grid0.coords t) (iblk m c 1 t) (iblk m c 0 t) (outsAt0 m c (t.val - 1) (Nat.lt_of_le_of_lt (Nat.sub_le _ _) t.isLt)).2) := by
  rw [outsAt0_C m c t h0 h49]
  dsimp only
  exact out_C (F := Ideal) c (grid0.coords t) (ms0_0 t) (hs0_0 t) (ms0_1 t) (hs0_1 t) (ms0_2 t) (hs0_2 t) (ms0_3 t) (hs0_3 t)
    (ms0_4 t) (hs0_4 t) scM0_0 (Memref.isWhole_whole _) (fun h => h0 ((hcond0_0 t).mp h)) ((hcond0_1 t).mpr h49)
    (iblk m c 0 t) (iblk m c 1 t) (iblk m c 2 t) (iblk m c 3 t) (outsAt0 m c (t.val - 1) (Nat.lt_of_le_of_lt (Nat.sub_le _ _) t.isLt)).2

/-- WHAT A LAST-TILE POINT WRITES BACK is its block of the layer. -/
theorem flushed_eq (c : Dev nD) (t : Fin cfg0.N) (hf : (cfg0.win 4).flush t = true) :
    (dats m 0 c).flushed 4 t = ((cfg0.win 4).blk t).view.read (Elt Ideal) (layer m c) := by
  have h49 : t.val % 50 = 49 := (flush0_4 t).mp hf
  have h0 : ¬t.val % 50 = 0 := by omega
  obtain ⟨-, -, -, -, -, -, -, -, -, e0, e1, e2⟩ := idx_facts t
  have hout : (outsAt0 m c t.val t.isLt).1 = emit (iblk m c 3 t) (iblk m c 2 t) (outsAt0 m c t.val t.isLt).2 :=
    (out_last m c t h0 h49).trans (congrArg (emit (iblk m c 3 t) (iblk m c 2 t)) (scratch_next m c t h0).symm)
  rw [Value.flushed4, hout]
  funext y
  show emit (iblk m c 3 t) (iblk m c 2 t) (outsAt0 m c t.val t.isLt).2 y = layer m c (((cfg0.win 4).blk t).view.emb y)
  refine out_entry m c t h49 y _ ?_ ?_ ?_
  · show win0_4.index t (0 : Fin 3) * 2 + 1 * (y 0).val = (y 0).val; rw [e0]; omega
  · show win0_4.index t (1 : Fin 3) * 1024 + 1 * (y 1).val = 1024 * (t.val / 400) + (y 1).val; rw [e1]; omega
  · show win0_4.index t (2 : Fin 3) * 512 + 1 * (y 2).val = 512 * ((t.val / 50) % 8) + (y 2).val; rw [e2]; omega

/-- An index of the result is in point t's block iff each coordinate is in the block's range on its axis. -/
theorem mem_blk (t : Fin cfg0.N) (i : S2x2048x4096.Idx) :
    i ∈ ((cfg0.win 4).blk t).view.set ↔ ∀ a : Fin 3, win0_4.index t a * S2x1024x512.size a ≤ (i a).val
      ∧ (i a).val < win0_4.index t a * S2x1024x512.size a + S2x1024x512.size a := by
  show i ∈ ((View.whole main_v1).slice (win0_4.rect t)).set ↔ _
  rw [View.set_slice_whole, Rect.mem_set_unit]
  exact Iff.rfl

/-- Every entry of the result is in the block of a point that writes back. -/
theorem cover (i : S2x2048x4096.Idx) :
    ∃ t : Fin cfg0.N, (cfg0.win 4).flush t = true ∧ i ∈ ((cfg0.win 4).blk t).view.set := by
  have hN : cfg0.N = 800 := N_0
  have h0 : (i 0).val < 2 := (i 0).isLt
  have h1 : (i 1).val < 2048 := (i 1).isLt
  have h2 : (i 2).val < 4096 := (i 2).isLt
  let t : Fin cfg0.N := ⟨400 * ((i 1).val / 1024) + 50 * ((i 2).val / 512) + 49, by rw [hN]; omega⟩
  have ht : t.val = 400 * ((i 1).val / 1024) + 50 * ((i 2).val / 512) + 49 := rfl
  obtain ⟨-, -, -, -, -, -, -, -, -, e0, e1, e2⟩ := idx_facts t
  refine ⟨t, (flush0_4 t).mpr (by omega), ?_⟩
  rw [mem_blk]
  intro a
  match a with
  | ⟨0, _⟩ => show win0_4.index t (0 : Fin 3) * 2 ≤ (i 0).val ∧ (i 0).val < win0_4.index t (0 : Fin 3) * 2 + 2; rw [e0]; omega
  | ⟨1, _⟩ => show win0_4.index t (1 : Fin 3) * 1024 ≤ (i 1).val ∧ (i 1).val < win0_4.index t (1 : Fin 3) * 1024 + 1024; rw [e1]; omega
  | ⟨2, _⟩ => show win0_4.index t (2 : Fin 3) * 512 ≤ (i 2).val ∧ (i 2).val < win0_4.index t (2 : Fin 3) * 512 + 512; rw [e2]; omega

/-- THE ARRAY after the run is the layer. -/
theorem final (c : Dev nD) : (dats m 0 c).arrAt 4 cfg0.N = layer m c :=
  (dats m 0 c).arrAt_eq_of_cover 4 (layer m c) (fun t hf => flushed_eq m c t hf) (cover)

/-- The layer of the arguments as launched: the region finds the three staged arguments as they were. -/
theorem layer_eq (c : Dev nD) : layer m c
    = embed (m ((c : Thread nD τ).loc main_arg0)) (m ((c : Thread nD τ).loc main_arg1))
        (m ((c : Thread nD τ).loc main_arg2)) (m ((c : Thread nD τ).loc main_arg3)) := by
  unfold layer
  rw [V_main_arg0, V_main_arg1, V_main_arg3]

/-- The kernel's run: every weakly fair execution terminates with the result array at the embedding layer of the
    argument arrays, and the arguments unchanged. -/
theorem run : θ_run defs (onTc (τ := τ) (main (F := Ideal))) ⟨m, fun _ => 0, ρ⟩ fun r => ∀ c : Dev nD,
      r.2.mem ((c : Thread nD τ).loc main_v1)
        = embed (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (layer_eq m c)), (h c).2⟩)
    (Value.run_blocks m ρ)

end Cert.KernelIdeal.Acc

end
-- ==== Proof.RefValue.lean ====
/-
  The reference computes the embedding layer.

  Read one operation at a time, entry (b, s, d) of the reference's result is the contraction over the table's
  rows v of (the token word x[b, s] compared with the row number v, as 1 or 0) times W[v, d], then the bias
  at d added, then the position's entry at (s, d) added: the specification's function, term by term.
-/
import proofs.«178647_j39307540693313_2_alg».proof.Proof.Gen.ReferenceIdeal.Read
import proofs.«178647_j39307540693313_2_alg».proof.Proof.Spec

noncomputable section

open scoped BigOperators

namespace Cert.ReferenceIdeal.RefValue

open Cert.ReferenceIdeal Cert.ReferenceIdeal.Read Idealize.ShloMosaic Idealize.ShloMosaic.ValueIdx

/-- Entry (b, s, v) of the reference's one-hot array is the indicator of the token word at (b, s) against v. -/
theorem onehot_apply (x0 : (⟨S2x2048, .i32⟩ : BufTy).Contents (Elt Ideal)) (i : S2x2048x4096.Idx) (k : Fin 50400) :
    val_main_v0 (F := Ideal) x0 (lidx_main_v1 i k) = Cert.Embed.hot (x0 (ix2 (i 0) (i 1))) k.val := by
  rw [val_main_v0_apply, val_main_call0_v4_apply, val_main_call0_v2_apply, val_main_call0_v0_apply,
    val_main_call0_v3_apply, val_main_call0_v1_apply]
  have e : idx_main_call0_v0 (idx_main_call0_v2 (lidx_main_v1 i k)) = ix2 (i 0) (i 1) :=
    funext fun a => Fin.ext (by match a with | ⟨0, _⟩ => rfl | ⟨1, _⟩ => rfl)
  rw [e]
  rfl

/-- The reference's result is the embedding layer of its four arguments. -/
theorem result_eq (x0 : (⟨S2x2048, .i32⟩ : BufTy).Contents (Elt Ideal)) (x1 : (⟨S50400x4096, .f32⟩ : BufTy).Contents (Elt Ideal))
    (x2 : (⟨S4096, .f32⟩ : BufTy).Contents (Elt Ideal)) (x3 : (⟨S2048x4096, .f32⟩ : BufTy).Contents (Elt Ideal)) :
    val_main_v7 (F := Ideal) x0 x1 x2 x3 = Cert.Embed.embed x0 x1 x2 x3 := by
  funext i
  rw [val_main_v7_apply, val_main_v4_apply, val_main_v1_apply, val_main_v3_apply, val_main_v2_apply,
    val_main_v6_apply, val_main_v5_apply]
  have e2 : idx_main_v2 (idx_main_v3 i) = ix1 (i 2) :=
    funext fun a => Fin.ext (by match a with | ⟨0, _⟩ => rfl)
  have e3 : idx_main_v5 (idx_main_v6 i) = ix2 (i 1) (i 2) :=
    funext fun a => Fin.ext (by match a with | ⟨0, _⟩ => rfl | ⟨1, _⟩ => rfl)
  have e1 : ∀ k : Fin 50400, ridx_main_v1 i k = ix2 k (i 2) := fun k =>
    funext fun a => Fin.ext (by match a with | ⟨0, _⟩ => rfl | ⟨1, _⟩ => rfl)
  rw [e2, e3]
  simp only [onehot_apply, e1]
  rfl

end Cert.ReferenceIdeal.RefValue

end
-- ==== Proof.lean ====
/-
  An embedding layer computed as a one-hot matrix product, tiled, against the same layer computed whole.

  Both programs compute, for a batch of token words x[b, s], a table W[v, d], a bias[d] and a position array
  pos[s, d], the array

      out[b, s, d] = (sum over v < 50400 of [x[b, s] = v] * W[v, d]) + bias[d] + pos[s, d],

  where [x = v] is 1 when the 32-bit word x is the word of v and 0 otherwise. The reference builds the whole
  one-hot array and contracts it with the table in one product. The kernel walks a (2, 8, 50) grid: for each
  block of 1024 sequence rows and 512 model columns it visits the table in 50 tiles of 1008 rows, at each tile
  compares the token words shifted by the tile's first row number with the positions 0 .. 1007 inside the tile,
  multiplies that one-hot block with the table block and adds the product to an accumulator it carries from one
  tile to the next (zeroed at the first tile); at the last tile it adds the bias row and the position block and
  writes the output block.

  On the extended reals a change of float format is the identity, the product into a zero accumulator is the
  plain sum of products, and addition is commutative and associative; so the accumulator after the last tile is
  the token's row sum over all 50400 rows, cut into fifty consecutive pieces, and the two results are equal
  entry by entry. No finiteness of the inputs is needed for that, and the precondition is never opened.

  Modules: Spec (the layer as one function, the row sum by tiles, the shifted compare), RefValue (the reference
  is that function), Pieces (what one run of the body leaves, case by case), Entries (one step and the output
  block read at an entry), Accum (the accumulator after every grid point, by induction on the point), KernelValue
  (what the last-tile points write back, the cover of the result, the kernel's run). The three frames are the
  generated ones; the kernel's idealization rewrote nothing.
-/
import proofs.«178647_j39307540693313_2_alg».proof.Defs
import proofs.«178647_j39307540693313_2_alg».proof.Proof.KernelValue
import proofs.«178647_j39307540693313_2_alg».proof.Proof.RefValue
import proofs.«178647_j39307540693313_2_alg».proof.Proof.Gen.Kernel
import proofs.«178647_j39307540693313_2_alg».proof.Proof.Gen.Kernel.Skeleton
import proofs.«178647_j39307540693313_2_alg».proof.Proof.Gen.Kernel.Launch
import proofs.«178647_j39307540693313_2_alg».proof.Proof.Gen.Kernel.Points
import proofs.«178647_j39307540693313_2_alg».proof.Proof.Gen.Kernel.Frame
import proofs.«178647_j39307540693313_2_alg».proof.Proof.Gen.KernelIdeal
import proofs.«178647_j39307540693313_2_alg».proof.Proof.Gen.KernelIdeal.Skeleton
import proofs.«178647_j39307540693313_2_alg».proof.Proof.Gen.KernelIdeal.Launch
import proofs.«178647_j39307540693313_2_alg».proof.Proof.Gen.KernelIdeal.Points
import proofs.«178647_j39307540693313_2_alg».proof.Proof.Gen.KernelIdeal.Frame
import proofs.«178647_j39307540693313_2_alg».proof.Proof.Gen.ReferenceIdeal
import proofs.«178647_j39307540693313_2_alg».proof.Proof.Gen.KernelIdeal.Value
import proofs.«178647_j39307540693313_2_alg».proof.Proof.Gen.ReferenceIdeal.Run
import proofs.«178647_j39307540693313_2_alg».proof.Proof.Gen.ReferenceIdeal.Read
import proofs.«178647_j39307540693313_2_alg».proof.Proof.Gen.Pre_finite_inputs
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- On the extended reals the kernel's result array ends at the embedding layer of its arguments, and the
    reference's at the embedding layer of arguments that agree with them: the same array. -/
theorem algebraic : Cert.algebraic_KernelIdeal_ReferenceIdeal := by
  intro m ρ m' ρ' _ hagree
  refine ⟨_, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
